-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S2x1x128 : Shape := ⟨3, ![2, 1, 128]⟩
abbrev S8192x128 : Shape := ⟨2, ![8192, 128]⟩
abbrev S1x1x128 : Shape := ⟨3, ![1, 1, 128]⟩
abbrev S1x128 : Shape := ⟨2, ![1, 128]⟩
abbrev S128 : Shape := ⟨1, ![128]⟩
abbrev S_ : Shape := ⟨0, ![]⟩

abbrev nBuf : Space → Nat
  | .hbm => 15
  | .vmem => 10
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S2x1x128, .f32⟩
  | .hbm, ⟨5, _⟩ => ⟨S2x1x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x128, .f32⟩
  | .local _ .vmem, ⟨9, _⟩ => ⟨S1x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v45 : BitVec 1 := Scalar.cmpi .eq arg1 c15_i32
  let v46 : BitVec 32 := Scalar.extui v45
  let c0_i32_17 : BitVec 32 := 0#32
  let v47 : BitVec 1 := Scalar.cmpi .ne v46 c0_i32_17
  v47

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S33554432_S262144x128 : S33554432.ShapeCasts S262144x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  natLt_1_32 : 1 < 32
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S2x1x128_S_d0_1_2 : S2x1x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .i32 = 32 ∨ (Rect.block (s := S262144x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S33554432, .f32⟩
  | .hbm, ⟨3, _⟩ => ⟨S_, .i32⟩
  | .hbm, ⟨4, _⟩ => ⟨S33554432, .i32⟩
  | .hbm, ⟨5, _⟩ => ⟨S33554432, .i1⟩
  | .hbm, ⟨6, _⟩ => ⟨S33554432, .f32⟩
  | .hbm, ⟨7, _⟩ => ⟨S_, .f32⟩
  | .hbm, ⟨8, _⟩ => ⟨S33554432, .f32⟩
  | .hbm, ⟨9, _⟩ => ⟨S33554432, .f32⟩
  | .hbm, ⟨10, _⟩ => ⟨S33554432, .f32⟩
  | .hbm, ⟨11, _⟩ => ⟨S_, .f32⟩
  | .hbm, ⟨12, _⟩ => ⟨S33554432, .f32⟩
  | .hbm, ⟨13, _⟩ => ⟨S33554432, .f32⟩
  | .hbm, ⟨14, _⟩ => ⟨S33554432, .f32⟩
  | .hbm, ⟨15, _⟩ => ⟨S_, .f32⟩
  | .hbm, ⟨16, _⟩ => ⟨S33554432, .f32⟩
  | .hbm, ⟨17, _⟩ => ⟨S33554432, .f32⟩
  | .hbm, ⟨18, _⟩ => ⟨S_, .f32⟩
  | .hbm, ⟨19, _⟩ => ⟨S33554432, .f32⟩
  | .hbm, ⟨20, _⟩ => ⟨S33554432, .f32⟩
  | .hbm, ⟨21, _⟩ => ⟨S33554432, .f32⟩
  | .hbm, ⟨22, _⟩ => ⟨S33554432, .f32⟩
  | .hbm, ⟨23, _⟩ => ⟨S_, .f32⟩
  | .hbm, ⟨24, _⟩ => ⟨S33554432, .f32⟩
  | .hbm, ⟨25, _⟩ => ⟨S33554432, .f32⟩
  | .hbm, ⟨26, _⟩ => ⟨S33554432, .f32⟩
  | .hbm, ⟨27, _⟩ => ⟨S_, .f32⟩
  | .hbm, ⟨28, _⟩ => ⟨S33554432, .f32⟩
  | .hbm, ⟨29, _⟩ => ⟨S33554432, .f32⟩
  | .hbm, ⟨30, _⟩ => ⟨S33554432, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S33554432, .f32⟩
  | .hbm, ⟨37, _⟩ => ⟨S33554432, .i1⟩
  | .hbm, ⟨38, _⟩ => ⟨S33554432, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.Square.lean ====
/-
  The square of an absolute value over the extended reals: raising |y| to the real power 2 is the
  product |y| · |y|, for every extended real y (an infinite y has |y| = +∞, and both sides are +∞).
-/
import Idealize.ShloMosaic.PureOps.Ideal

noncomputable section

namespace Cert.Focal

open Idealize.ShloMosaic

/-- A real base to the real power 2 is its product with itself. -/
theorem pow_coe_two (a : ℝ) : Ideal.pow (a : EReal) ((2 : ℝ) : EReal) = (a : EReal) * (a : EReal) := by
  show ((Real.rpow a 2 : ℝ) : EReal) = _
  rw [← EReal.coe_mul]
  congr 1
  show a ^ (2 : ℝ) = a * a
  rw [Real.rpow_two, sq]

/-- `+∞` to the power 2 is `+∞ = +∞ · +∞`. -/
theorem pow_top_two : Ideal.pow (⊤ : EReal) ((2 : ℝ) : EReal) = (⊤ : EReal) * ⊤ := by
  show (if (0 : EReal) < ((2 : ℝ) : EReal) then (⊤ : EReal) else _) = _
  rw [if_pos (by exact_mod_cast (by norm_num : (0 : ℝ) < 2)), EReal.top_mul_top]

/-- For every extended real `y`, `|y| ^ 2 = |y| · |y|`, with `|y| = max y (-y)`. -/
theorem pow_abs_two (y : EReal) :
    Ideal.pow (max y (-y)) ((2 : ℝ) : EReal) = max y (-y) * max y (-y) := by
  induction y using EReal.rec with
  | bot =>
    have h : max (⊥ : EReal) (-⊥) = ⊤ := by simp
    rw [h]; exact pow_top_two
  | top =>
    have h : max (⊤ : EReal) (-⊤) = ⊤ := by simp
    rw [h]; exact pow_top_two
  | coe r =>
    rcases le_total (-r) r with h | h
    · have h' : -(r : EReal) ≤ (r : EReal) := by rw [← EReal.coe_neg]; exact_mod_cast h
      rw [max_eq_left h']; exact pow_coe_two r
    · have h' : (r : EReal) ≤ -(r : EReal) := by rw [← EReal.coe_neg]; exact_mod_cast h
      rw [max_eq_right h', ← EReal.coe_neg]; exact pow_coe_two (-r)

/-- The f32 word of `2.0` is the real 2 at the ideal instance. -/
theorem ofBits_two : Ideal.ofBits .f32 0x40000000#32 = ((2 : ℝ) : EReal) := by
  simp [Ideal.ofBits, Ideal.ieee, -EReal.coe_mul]; norm_num

end Cert.Focal

end
-- ==== Proof.Elementwise.lean ====
/-
  The two per-element functions of the focal loss, over the extended reals, and the two spellings of each.

  For an input x and an integer label t the loss term is
      log x · |1 − x|² · 0.75        when t = 1,
      log (1 − x) · |x|² · 0.25      otherwise,
  and the hit indicator is 1 when x rounded to the nearest integer (ties to even) equals t, else 0.
  One program squares |y| as the product |y| · |y| and widens the comparison bit to 32 bits before converting it;
  the other raises |y| to the real power 2 and converts the bit directly. Over the extended reals these agree at every
  x, finite or not: |y|² is |y| · |y| (Square), and a one-bit word read unsigned is its zero-extension read signed.
-/
import Idealize.ShloMosaic.PureOps.Ideal
import Idealize.ShloMosaic.Lib.ValueIdx
import proofs.«175419_j77489799954599_2_alg».proof.Proof.Square

noncomputable section

namespace Cert.Focal

open Idealize.ShloMosaic

/-- The loss term of one element, the square written as a product. -/
def lossEl (x : Ideal .f32) (t : BitVec 32) : Ideal .f32 :=
  Scalar.select (IntOp.cmpi .eq t 1#32)
    (FloatOps.mulf (FloatOps.mulf (FloatOps.log x)
        (FloatOps.mulf (FloatOps.absf (FloatOps.subf (FloatOps.ofBits .f32 0x3F800000#32) x))
          (FloatOps.absf (FloatOps.subf (FloatOps.ofBits .f32 0x3F800000#32) x))))
      (FloatOps.ofBits .f32 0x3F400000#32))
    (FloatOps.mulf (FloatOps.mulf (FloatOps.log (FloatOps.subf (FloatOps.ofBits .f32 0x3F800000#32) x))
        (FloatOps.mulf (FloatOps.absf x) (FloatOps.absf x)))
      (FloatOps.ofBits .f32 0x3E800000#32))

/-- The same term with the square written as the real power 2, on the host's operations. -/
def lossElPow (x : Ideal .f32) (t : BitVec 32) : Ideal .f32 :=
  Scalar.select (IntOp.cmpi .eq t 1#32)
    (FloatOps.mulf (FloatOps.mulf (FloatOps.hostUnary .log x)
        (FloatOps.hostPowf (FloatOps.hostAbsf (FloatOps.subf (FloatOps.ofBits .f32 0x3F800000#32) x))
          (FloatOps.ofBits .f32 0x40000000#32)))
      (FloatOps.ofBits .f32 0x3F400000#32))
    (FloatOps.mulf (FloatOps.mulf (FloatOps.hostUnary .log (FloatOps.subf (FloatOps.ofBits .f32 0x3F800000#32) x))
        (FloatOps.hostPowf (FloatOps.hostAbsf x) (FloatOps.ofBits .f32 0x40000000#32)))
      (FloatOps.ofBits .f32 0x3E800000#32))

/-- `|y|` to the power `2.0` is `|y| · |y|` on the operations of the ideal instance. -/
theorem hostPow_abs_two (y : Ideal .f32) :
    FloatOps.hostPowf (FloatOps.hostAbsf y) (FloatOps.ofBits .f32 0x40000000#32)
      = FloatOps.mulf (FloatOps.absf y) (FloatOps.absf y) := by
  show Ideal.pow (max (y : EReal) (-y)) (Ideal.ofBits .f32 0x40000000#32) = max (y : EReal) (-y) * max (y : EReal) (-y)
  rw [ofBits_two]
  exact pow_abs_two y

theorem lossElPow_eq (x : Ideal .f32) (t : BitVec 32) : lossElPow x t = lossEl x t := by
  unfold lossElPow lossEl
  rw [hostPow_abs_two, hostPow_abs_two]
  rfl

/-- The hit indicator of one element, the comparison bit widened to 32 bits and read signed. -/
def hitEl (x : Ideal .f32) (t : BitVec 32) : Ideal .f32 :=
  FloatOps.sitofp .f32 ((FloatOps.cmpf .oeq (FloatOps.roundeven x) (FloatOps.sitofp .f32 t)).setWidth 32)

/-- The same indicator, the comparison bit read unsigned, the rounding the host's. -/
def hitElBit (x : Ideal .f32) (t : BitVec 32) : Ideal .f32 :=
  FloatOps.uitofp .f32 (FloatOps.cmpf .oeq (FloatOps.hostUnary .roundeven x) (FloatOps.sitofp .f32 t))

/-- A one-bit word read unsigned is its 32-bit zero-extension read signed. -/
theorem bit_widen (b : BitVec 1) :
    FloatOps.sitofp (F := Ideal) .f32 (b.setWidth 32) = FloatOps.uitofp (F := Ideal) .f32 b := by
  have hint : (b.setWidth 32).toInt = (b.toNat : ℤ) := by
    by_cases h : b = 1#1
    · subst h; decide
    · have := ValueIdx.eq_zero_of_ne_one h; subst this; decide
  show (((b.setWidth 32).toInt : ℝ) : EReal) = ((b.toNat : ℝ) : EReal)
  rw [hint, Int.cast_natCast]

theorem hitElBit_eq (x : Ideal .f32) (t : BitVec 32) : hitElBit x t = hitEl x t := by
  unfold hitElBit hitEl
  exact (bit_widen _).symm

end Cert.Focal

end
-- ==== Proof.Parts.lean ====
/-
  The kernel body's arithmetic in a vocabulary of its own, at any float instance, and read at an index at the ideal one.

  At every grid point the body loads a block of 8192 rows by 128 lanes of inputs x and of labels t, forms the 8192 × 128
  loss terms and hit indicators, sums each down the rows lane by lane, and adds the two rows of 128 lane sums into two
  running rows kept across the grid points (reset to zero at the first point of each core's run). The printed payloads are
  exactly: the zero row; "running row + lane sums of the loss terms"; "running row + lane sums of the hit indicators"; and
  the running row re-laid as a [1,1,128] block.
  At the ideal instance a lane sum at lane l is the sum over the 8192 rows r of the term at (r, l).
-/
import proofs.«175419_j77489799954599_2_alg».proof.Proof.Gen.KernelIdeal.Skeleton
import proofs.«175419_j77489799954599_2_alg».proof.Proof.Elementwise
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Focal

open Cert.KernelIdeal Cert.KernelIdeal.Gen Idealize.ShloMosaic Idealize.ShloMosaic.ValueIdx Cert.Focal

variable {F : FTy → Type} [FloatOps F]

/-- The loss terms of a block: element by element, `log x · |1 − x|·|1 − x| · 0.75` where the label is 1 and
    `log (1 − x) · |x|·|x| · 0.25` elsewhere. -/
def lossTerms (x : FVec F S8192x128 .f32) (t : IVec S8192x128 32) : FVec F S8192x128 .f32 :=
  select (cmpi .eq t (broadcast S8192x128 1#32))
    (mulf (mulf (log x)
        (mulf (absf (subf (broadcast S8192x128 (Scalar.ofBits .f32 0x3F800000#32)) x))
          (absf (subf (broadcast S8192x128 (Scalar.ofBits .f32 0x3F800000#32)) x))))
      (broadcast S8192x128 (Scalar.ofBits .f32 0x3F400000#32)))
    (mulf (mulf (log (subf (broadcast S8192x128 (Scalar.ofBits .f32 0x3F800000#32)) x))
        (mulf (absf x) (absf x)))
      (broadcast S8192x128 (Scalar.ofBits .f32 0x3E800000#32)))

/-- The hit indicators of a block: 1 where x rounded to even equals the label, 0 elsewhere. -/
def hitTerms (x : FVec F S8192x128 .f32) (t : IVec S8192x128 32) : FVec F S8192x128 .f32 :=
  sitofp .f32 (extui 32 (cmpf .oeq (roundeven x) (sitofp .f32 t)) natLt_1_32)

/-- The sum down the rows of a block, one value per lane, kept as a [1,128] row. -/
def laneSum (v : FVec F S8192x128 .f32) : FVec F S1x128 .f32 :=
  shapeCast S1x128 (multiReduction .add [0] S128 v 0x00000000#32 reduces_S8192x128_S128 (.inl rfl) rfl) shapeCasts_S128_S1x128

/-- The row of zeros a running row is reset to. -/
def zeroRow : FVec F S1x128 .f32 := broadcast S1x128 (Scalar.ofBits .f32 0x00000000#32)

/-- A [1,128] row re-laid as the [1,1,128] block an output window stores. -/
def asBlock (v : FVec F S1x128 .f32) : FVec F S1x1x128 .f32 := shapeCast S1x1x128 v shapeCasts_S1x128_S1x1x128

theorem pay8_eq (v3 : Vec F S8192x128 .f32) (v5 : Vec F S8192x128 .i32) (v28 : Vec F S1x128 .f32) :
    k0_pay8 v3 v5 v28 = addf v28 (laneSum (lossTerms v3 v5)) := by
  unfold k0_pay8 k0_pay6 k0_pay7
  simp only [shapeCast_self]
  rfl

theorem pay1_eq (v3 : Vec F S8192x128 .f32) (v5 : Vec F S8192x128 .i32) (v40 : Vec F S1x128 .f32) :
    k0_pay1 (k0_pay9 v3 v5) v40 = addf v40 (laneSum (hitTerms v3 v5)) := by
  unfold k0_pay1 k0_pay9 k0_pay6 k0_pay7
  simp only [shapeCast_self]
  rfl

theorem pay4_eq : k0_pay4 (F := F) = zeroRow := by
  unfold k0_pay4
  simp only [shapeCast_self]
  rfl

theorem pay5_eq : k0_pay5 (F := F) = zeroRow := by
  unfold k0_pay5
  simp only [shapeCast_self]
  rfl

theorem pay2_eq (v : Vec F S1x128 .f32) : k0_pay2 v = asBlock v := rfl

theorem pay3_eq (v : Vec F S1x128 .f32) : k0_pay3 v = asBlock v := rfl

/-! ## At the ideal instance, at an index -/

theorem lossTerms_apply (x : FVec Ideal S8192x128 .f32) (t : IVec S8192x128 32) (i : S8192x128.Idx) :
    lossTerms x t i = lossEl (x i) (t i) := rfl

theorem hitTerms_apply (x : FVec Ideal S8192x128 .f32) (t : IVec S8192x128 32) (i : S8192x128.Idx) :
    hitTerms x t i = hitEl (x i) (t i) := rfl

/-- A lane sum at lane `l` is the sum over the block's rows of the summand at `(r, l)`. -/
theorem laneSum_apply (v : FVec Ideal S8192x128 .f32) (u : Fin 1) (l : Fin 128) :
    laneSum v (ix2 u l) = ∑ r : Fin 8192, v (ix2 r l) := by
  unfold laneSum
  refine (shapeCast_a_1a_apply _ shapeCasts_S128_S1x128 u l).trans ?_
  refine (Ideal.multiReduction_add_single v 0x00000000#32 reduces_S8192x128_S128 (.inl rfl) rfl (ix1 l)).trans ?_
  refine Finset.sum_congr rfl fun r _ => congrArg v ?_
  funext a
  apply Fin.ext
  match a with
  | ⟨0, _⟩ => rfl
  | ⟨1, _⟩ => rfl

theorem zeroRow_apply (i : S1x128.Idx) : zeroRow (F := Ideal) i = 0 :=
  Ideal.ofBits_zero_f32

/-- The re-laid block at `(0, 0, l)` is the row at `(0, l)`. -/
theorem asBlock_apply {α : Type} (v : S1x128.Idx → α) (h : S1x128.ShapeCasts S1x1x128) (u u' : Fin 1) (l : Fin 128) :
    shapeCast S1x1x128 v h (ix3 u u' l) = v (ix2 u' l) :=
  shapeCast_ab_1ab_apply v h u u' l

end Cert.KernelIdeal.Focal

end
-- ==== Proof.Pieces.lean ====
/-
  What the kernel body leaves behind at a grid point, case by case, as values.

  The body has three control cases: the first point of a core's run (the two running rows are reset to zero before the
  block's lane sums are added), an interior point (the lane sums are added to what the point before left) and the last
  point of a run (the same, and the two running rows are then copied out as [1,1,128] blocks). Each case's stores cover
  the buffers they write, so what a buffer holds afterwards is the last covering store's value; a load of a buffer
  after such a store reads that value back.
-/
import proofs.«175419_j77489799954599_2_alg».proof.Proof.Gen.KernelIdeal.Frame
import proofs.«175419_j77489799954599_2_alg».proof.Proof.Parts
import Idealize.ShloMosaic.Lib.Pipeline.Value
import Idealize.ShloMosaic.Lib.Tactic

noncomputable section

namespace Cert.KernelIdeal.Focal

open Cert.KernelIdeal Cert.KernelIdeal.Gen Idealize.ShloMosaic Idealize.ShloMosaic.TcCoe Idealize.SL.Sem Idealize.ShloMosaic.ValueIdx Cert.Focal
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## First point of a run: reset, then add -/

theorem lossRow_first (c : Dev nD) (i : grid0.Coords) (a2 : Memref sig .tc .vmem S8192x128 .f32) (h2 : a2.IsWhole) (a3 : Memref sig .tc .vmem S8192x128 .i32) (h3 : a3.IsWhole) (a4 : Memref sig .tc .vmem S1x1x128 .f32) (h4 : a4.IsWhole) (a5 : Memref sig .tc .vmem S1x1x128 .f32) (h5 : a5.IsWhole) (a6 : Memref sig .tc .vmem S1x128 .f32) (h6 : a6.IsWhole) (a7 : Memref sig .tc .vmem S1x128 .f32) (h7 : a7.IsWhole) (hc0 : cond0_0 i) (hc1 : ¬cond0_1 i)
    (x0 : Vec F S8192x128 .f32) (x1 : Vec F S8192x128 .i32) :
    sout0_A_0 c i a2 h2 a3 h3 a4 h4 a5 h5 a6 h6 a7 h7 hc0 hc1 x0 x1 = addf zeroRow (laneSum (lossTerms x0 x1)) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S1x128) hz2, View.readCov_unit_zero (S := S1x128) _ hz2]
  simp only [View.readAt_eq_ld, h2.read_unread, h3.read_unread, h6.read_unread, h7.read_unread, View.ld_unit_zero (S := S8192x128) hz2, View.ld_unit_zero (S := S1x128) hz2]
  rw [pay4_eq]
  exact pay8_eq (F := F) _ _ _

theorem hitRow_first (c : Dev nD) (i : grid0.Coords) (a2 : Memref sig .tc .vmem S8192x128 .f32) (h2 : a2.IsWhole) (a3 : Memref sig .tc .vmem S8192x128 .i32) (h3 : a3.IsWhole) (a4 : Memref sig .tc .vmem S1x1x128 .f32) (h4 : a4.IsWhole) (a5 : Memref sig .tc .vmem S1x1x128 .f32) (h5 : a5.IsWhole) (a6 : Memref sig .tc .vmem S1x128 .f32) (h6 : a6.IsWhole) (a7 : Memref sig .tc .vmem S1x128 .f32) (h7 : a7.IsWhole) (hc0 : cond0_0 i) (hc1 : ¬cond0_1 i)
    (x0 : Vec F S8192x128 .f32) (x1 : Vec F S8192x128 .i32) :
    sout0_A_1 c i a2 h2 a3 h3 a4 h4 a5 h5 a6 h6 a7 h7 hc0 hc1 x0 x1 = addf zeroRow (laneSum (hitTerms x0 x1)) := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S1x128) hz2, View.readCov_unit_zero (S := S1x128) _ hz2]
  simp only [View.readAt_eq_ld, h2.read_unread, h3.read_unread, h6.read_unread, h7.read_unread, View.ld_unit_zero (S := S8192x128) hz2, View.ld_unit_zero (S := S1x128) hz2]
  rw [pay5_eq]
  exact pay1_eq (F := F) _ _ _

/-! ## Interior point: add -/

theorem lossRow_step (c : Dev nD) (i : grid0.Coords) (a2 : Memref sig .tc .vmem S8192x128 .f32) (h2 : a2.IsWhole) (a3 : Memref sig .tc .vmem S8192x128 .i32) (h3 : a3.IsWhole) (a4 : Memref sig .tc .vmem S1x1x128 .f32) (h4 : a4.IsWhole) (a5 : Memref sig .tc .vmem S1x1x128 .f32) (h5 : a5.IsWhole) (a6 : Memref sig .tc .vmem S1x128 .f32) (h6 : a6.IsWhole) (a7 : Memref sig .tc .vmem S1x128 .f32) (h7 : a7.IsWhole) (hc0 : ¬cond0_0 i) (hc1 : ¬cond0_1 i)
    (x0 : Vec F S8192x128 .f32) (x1 : Vec F S8192x128 .i32) (xs0 xs1 : Vec F S1x128 .f32) :
    sout0_B_0 c i a2 h2 a3 h3 a4 h4 a5 h5 a6 h6 a7 h7 hc0 hc1 x0 x1 xs0 xs1 = addf xs0 (laneSum (lossTerms x0 x1)) := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  try sl_unfold_words
  rw [View.canon_unit_zero hz2]
  simp only [View.readAt_eq_ld, h2.read_unread, h3.read_unread, h6.read_unread, h7.read_unread, View.ld_unit_zero (S := S8192x128) hz2, View.ld_unit_zero (S := S1x128) hz2]
  exact pay8_eq (F := F) _ _ _

theorem hitRow_step (c : Dev nD) (i : grid0.Coords) (a2 : Memref sig .tc .vmem S8192x128 .f32) (h2 : a2.IsWhole) (a3 : Memref sig .tc .vmem S8192x128 .i32) (h3 : a3.IsWhole) (a4 : Memref sig .tc .vmem S1x1x128 .f32) (h4 : a4.IsWhole) (a5 : Memref sig .tc .vmem S1x1x128 .f32) (h5 : a5.IsWhole) (a6 : Memref sig .tc .vmem S1x128 .f32) (h6 : a6.IsWhole) (a7 : Memref sig .tc .vmem S1x128 .f32) (h7 : a7.IsWhole) (hc0 : ¬cond0_0 i) (hc1 : ¬cond0_1 i)
    (x0 : Vec F S8192x128 .f32) (x1 : Vec F S8192x128 .i32) (xs0 xs1 : Vec F S1x128 .f32) :
    sout0_B_1 c i a2 h2 a3 h3 a4 h4 a5 h5 a6 h6 a7 h7 hc0 hc1 x0 x1 xs0 xs1 = addf xs1 (laneSum (hitTerms x0 x1)) := by
  unfold sout0_B_1
  rw [View.read_writes_eq_canon _ _ _ (scover0_B_1 c i a2 h2 a3 h3 a4 h4 a5 h5 a6 h6 a7 h7 hc0 hc1 x0 x1 xs0 xs1)]
  unfold kernelRun0_B
  dsimp only
  try sl_unfold_words
  rw [View.canon_unit_zero hz2]
  simp only [View.readAt_eq_ld, h2.read_unread, h3.read_unread, h6.read_unread, h7.read_unread, View.ld_unit_zero (S := S8192x128) hz2, View.ld_unit_zero (S := S1x128) hz2]
  exact pay1_eq (F := F) _ _ _

/-! ## Last point of a run: add, and copy out -/

theorem lossRow_last (c : Dev nD) (i : grid0.Coords) (a2 : Memref sig .tc .vmem S8192x128 .f32) (h2 : a2.IsWhole) (a3 : Memref sig .tc .vmem S8192x128 .i32) (h3 : a3.IsWhole) (a4 : Memref sig .tc .vmem S1x1x128 .f32) (h4 : a4.IsWhole) (a5 : Memref sig .tc .vmem S1x1x128 .f32) (h5 : a5.IsWhole) (a6 : Memref sig .tc .vmem S1x128 .f32) (h6 : a6.IsWhole) (a7 : Memref sig .tc .vmem S1x128 .f32) (h7 : a7.IsWhole) (hc0 : ¬cond0_0 i) (hc1 : cond0_1 i)
    (x0 : Vec F S8192x128 .f32) (x1 : Vec F S8192x128 .i32) (xs0 xs1 : Vec F S1x128 .f32) :
    sout0_C_0 c i a2 h2 a3 h3 a4 h4 a5 h5 a6 h6 a7 h7 hc0 hc1 x0 x1 xs0 xs1 = addf xs0 (laneSum (lossTerms x0 x1)) := by
  unfold sout0_C_0
  rw [View.read_writes_eq_canon _ _ _ (scover0_C_0 c i a2 h2 a3 h3 a4 h4 a5 h5 a6 h6 a7 h7 hc0 hc1 x0 x1 xs0 xs1)]
  unfold kernelRun0_C
  dsimp only
  try sl_unfold_words
  rw [View.canon_unit_zero hz2]
  simp only [View.readAt_eq_ld, h2.read_unread, h3.read_unread, h6.read_unread, h7.read_unread, View.ld_unit_zero (S := S8192x128) hz2, View.ld_unit_zero (S := S1x128) hz2]
  exact pay8_eq (F := F) _ _ _

theorem hitRow_last (c : Dev nD) (i : grid0.Coords) (a2 : Memref sig .tc .vmem S8192x128 .f32) (h2 : a2.IsWhole) (a3 : Memref sig .tc .vmem S8192x128 .i32) (h3 : a3.IsWhole) (a4 : Memref sig .tc .vmem S1x1x128 .f32) (h4 : a4.IsWhole) (a5 : Memref sig .tc .vmem S1x1x128 .f32) (h5 : a5.IsWhole) (a6 : Memref sig .tc .vmem S1x128 .f32) (h6 : a6.IsWhole) (a7 : Memref sig .tc .vmem S1x128 .f32) (h7 : a7.IsWhole) (hc0 : ¬cond0_0 i) (hc1 : cond0_1 i)
    (x0 : Vec F S8192x128 .f32) (x1 : Vec F S8192x128 .i32) (xs0 xs1 : Vec F S1x128 .f32) :
    sout0_C_1 c i a2 h2 a3 h3 a4 h4 a5 h5 a6 h6 a7 h7 hc0 hc1 x0 x1 xs0 xs1 = addf xs1 (laneSum (hitTerms x0 x1)) := by
  unfold sout0_C_1
  rw [View.read_writes_eq_canon _ _ _ (scover0_C_1 c i a2 h2 a3 h3 a4 h4 a5 h5 a6 h6 a7 h7 hc0 hc1 x0 x1 xs0 xs1)]
  unfold kernelRun0_C
  dsimp only
  try sl_unfold_words
  rw [View.canon_unit_zero hz2]
  simp only [View.readAt_eq_ld, h2.read_unread, h3.read_unread, h6.read_unread, h7.read_unread, View.ld_unit_zero (S := S8192x128) hz2, View.ld_unit_zero (S := S1x128) hz2]
  exact pay1_eq (F := F) _ _ _

theorem lossOut_last (c : Dev nD) (i : grid0.Coords) (a2 : Memref sig .tc .vmem S8192x128 .f32) (h2 : a2.IsWhole) (a3 : Memref sig .tc .vmem S8192x128 .i32) (h3 : a3.IsWhole) (a4 : Memref sig .tc .vmem S1x1x128 .f32) (h4 : a4.IsWhole) (a5 : Memref sig .tc .vmem S1x1x128 .f32) (h5 : a5.IsWhole) (a6 : Memref sig .tc .vmem S1x128 .f32) (h6 : a6.IsWhole) (a7 : Memref sig .tc .vmem S1x128 .f32) (h7 : a7.IsWhole) (hc0 : ¬cond0_0 i) (hc1 : cond0_1 i)
    (x0 : Vec F S8192x128 .f32) (x1 : Vec F S8192x128 .i32) (xs0 xs1 : Vec F S1x128 .f32) :
    out0_C_2 c i a2 h2 a3 h3 a4 h4 a5 h5 a6 h6 a7 h7 hc0 hc1 x0 x1 xs0 xs1 = asBlock (addf xs0 (laneSum (lossTerms x0 x1))) := by
  unfold out0_C_2
  rw [View.read_writes_eq_canon _ _ _ (cover0_C_2 c i a2 h2 a3 h3 a4 h4 a5 h5 a6 h6 a7 h7 hc0 hc1 x0 x1 xs0 xs1)]
  unfold kernelRun0_C
  dsimp only
  sl_unfold_words
  rw [View.canon_unit_zero hz3, View.readCov_unit_zero (S := S1x128) _ hz2]
  simp only [View.readAt_eq_ld, h2.read_unread, h3.read_unread, h6.read_unread, h7.read_unread, View.ld_unit_zero (S := S8192x128) hz2, View.ld_unit_zero (S := S1x128) hz2]
  rw [pay2_eq, pay8_eq]

theorem hitOut_last (c : Dev nD) (i : grid0.Coords) (a2 : Memref sig .tc .vmem S8192x128 .f32) (h2 : a2.IsWhole) (a3 : Memref sig .tc .vmem S8192x128 .i32) (h3 : a3.IsWhole) (a4 : Memref sig .tc .vmem S1x1x128 .f32) (h4 : a4.IsWhole) (a5 : Memref sig .tc .vmem S1x1x128 .f32) (h5 : a5.IsWhole) (a6 : Memref sig .tc .vmem S1x128 .f32) (h6 : a6.IsWhole) (a7 : Memref sig .tc .vmem S1x128 .f32) (h7 : a7.IsWhole) (hc0 : ¬cond0_0 i) (hc1 : cond0_1 i)
    (x0 : Vec F S8192x128 .f32) (x1 : Vec F S8192x128 .i32) (xs0 xs1 : Vec F S1x128 .f32) :
    out0_C_3 c i a2 h2 a3 h3 a4 h4 a5 h5 a6 h6 a7 h7 hc0 hc1 x0 x1 xs0 xs1 = asBlock (addf xs1 (laneSum (hitTerms x0 x1))) := by
  unfold out0_C_3
  rw [View.read_writes_eq_canon _ _ _ (cover0_C_3 c i a2 h2 a3 h3 a4 h4 a5 h5 a6 h6 a7 h7 hc0 hc1 x0 x1 xs0 xs1)]
  unfold kernelRun0_C
  dsimp only
  sl_unfold_words
  rw [View.canon_unit_zero hz3, View.readCov_unit_zero (S := S1x128) _ hz2]
  simp only [View.readAt_eq_ld, h2.read_unread, h3.read_unread, h6.read_unread, h7.read_unread, View.ld_unit_zero (S := S8192x128) hz2, View.ld_unit_zero (S := S1x128) hz2]
  rw [pay3_eq, pay1_eq]

end Cert.KernelIdeal.Focal

end
-- ==== Proof.LibSumBlocks.lean ====
/-
  Re-grouping a finite sum into consecutive blocks, in any commutative additive monoid (so in particular over the extended
  reals, where it needs no finiteness): a sum over J·B consecutive naturals is the sum over J blocks of B. This is the law
  behind a contraction that is accumulated block by block along its contracted axis (a K-blocked matrix product kept in an
  accumulator across grid points or loop trips) against ONE whole contraction.
-/
import Mathlib.Algebra.BigOperators.Fin

namespace Cert.LibSumBlocks

/-- A sum over `J * B` consecutive naturals is the sum over `J` blocks of `B`: term `x = j * B + s` is term `s` of block `j`. -/
theorem sum_range_blocks {M : Type*} [AddCommMonoid M] (g : ℕ → M) (B : ℕ) : ∀ J : ℕ,
    ∑ x ∈ Finset.range (J * B), g x = ∑ j ∈ Finset.range J, ∑ s ∈ Finset.range B, g (j * B + s)
  | 0 => by simp
  | J + 1 => by
    rw [Nat.succ_mul, Finset.sum_range_add, Finset.sum_range_succ, sum_range_blocks g B J]

/-- The same with the whole sum over the index type `Fin (J * B)` (the form a contraction read at an index has). -/
theorem sum_fin_blocks {M : Type*} [AddCommMonoid M] (g : ℕ → M) (B J : ℕ) :
    ∑ k : Fin (J * B), g k.val = ∑ j ∈ Finset.range J, ∑ s ∈ Finset.range B, g (j * B + s) :=
  (Finset.sum_range g).symm.trans (sum_range_blocks g B J)

end Cert.LibSumBlocks
-- ==== Proof.LibRegroup.lean ====
/-
  Two laws of finite sums in a commutative additive monoid (so over the extended reals, with no finiteness asked).

  * A quantity that is RESET at the first point of every run of J consecutive points and that ADDS that point's
    contribution to what the point before left at every other point is, j points into a run, the sum of the run's
    first j + 1 contributions.
  * A sum over A·B·C·D consecutive naturals, regrouped: the outer sums over the first and the LAST digit of the
    mixed-radix expansion n = ((a·B + b)·C + c)·D + d, the inner sums over the two middle digits. This is the order in
    which a per-lane accumulator over a two-level grid collects a flat array: lane d of core a sums over the
    sequential steps b and the rows c of each block.
-/
import Mathlib.Algebra.BigOperators.Fin
import proofs.«175419_j77489799954599_2_alg».proof.Proof.LibSumBlocks

namespace Cert.LibRegroup

/-- The running sum of a run of points: `f` is reset to the point's contribution `P` where `n % J = 0` and adds it
    elsewhere; at point `J·q + j` it holds the contributions of points `J·q … J·q + j`. -/
theorem run_sum {ι β : Type*} [AddCommMonoid β] {N : ℕ} (J : ℕ) (f P : (n : ℕ) → n < N → ι → β)
    (h0 : ∀ (n : ℕ) (h : n < N) (i : ι), n % J = 0 → f n h i = P n h i)
    (hs : ∀ (n : ℕ) (h : n + 1 < N) (i : ι), ¬(n + 1) % J = 0 →
      f (n + 1) h i = f n (Nat.lt_of_succ_lt h) i + P (n + 1) h i)
    (q : ℕ) (i : ι) : ∀ (j : ℕ) (_ : j < J) (h : J * q + j < N),
      f (J * q + j) h i = ∑ s : Fin (j + 1), P (J * q + s.val) (by have := s.isLt; omega) i
  | 0, _, h => by
    rw [Fin.sum_univ_castSucc, Fin.sum_univ_zero, zero_add]
    exact h0 _ h i (by rw [Nat.add_zero, Nat.mul_mod_right])
  | j + 1, hj, h => by
    have hne : ¬(J * q + j + 1) % J = 0 := by
      rw [Nat.add_assoc, Nat.mul_add_mod, Nat.mod_eq_of_lt hj]; exact Nat.succ_ne_zero j
    rw [Fin.sum_univ_castSucc]
    have ih := run_sum J f P h0 hs q i j (Nat.lt_of_succ_lt hj) (Nat.lt_of_succ_lt h)
    have step := hs (J * q + j) h i hne
    rw [ih] at step
    exact step

/-- A sum over `A·B·C·D` consecutive naturals by the digits of `n = ((a·B + b)·C + c)·D + d`, the first and the last
    digit outermost. -/
theorem sum_range_four {β : Type*} [AddCommMonoid β] (g : ℕ → β) (A B C D : ℕ) :
    ∑ n ∈ Finset.range (A * B * C * D), g n
      = ∑ a ∈ Finset.range A, ∑ d ∈ Finset.range D, ∑ b ∈ Finset.range B, ∑ c ∈ Finset.range C,
          g (((a * B + b) * C + c) * D + d) := by
  rw [Cert.LibSumBlocks.sum_range_blocks g D (A * B * C),
    Cert.LibSumBlocks.sum_range_blocks (fun x => ∑ d ∈ Finset.range D, g (x * D + d)) C (A * B),
    Cert.LibSumBlocks.sum_range_blocks (fun x => ∑ c ∈ Finset.range C, ∑ d ∈ Finset.range D, g ((x * C + c) * D + d)) B A]
  refine Finset.sum_congr rfl fun a _ => ?_
  calc ∑ b ∈ Finset.range B, ∑ c ∈ Finset.range C, ∑ d ∈ Finset.range D, g (((a * B + b) * C + c) * D + d)
      = ∑ b ∈ Finset.range B, ∑ d ∈ Finset.range D, ∑ c ∈ Finset.range C, g (((a * B + b) * C + c) * D + d) :=
        Finset.sum_congr rfl fun b _ => Finset.sum_comm
    _ = ∑ d ∈ Finset.range D, ∑ b ∈ Finset.range B, ∑ c ∈ Finset.range C, g (((a * B + b) * C + c) * D + d) :=
        Finset.sum_comm

/-- The same over index types: the whole sum over `Fin N` with `N = A·B·C·D`. -/
theorem sum_fin_four {β : Type*} [AddCommMonoid β] (g : ℕ → β) (A B C D N : ℕ) (hN : N = A * B * C * D) :
    ∑ n : Fin N, g n.val
      = ∑ a : Fin A, ∑ d : Fin D, ∑ b : Fin B, ∑ c : Fin C, g (((a.val * B + b.val) * C + c.val) * D + d.val) := by
  subst hN
  rw [← Finset.sum_range g, sum_range_four g A B C D,
    Finset.sum_range (fun a => ∑ d ∈ Finset.range D, ∑ b ∈ Finset.range B, ∑ c ∈ Finset.range C, g (((a * B + b) * C + c) * D + d))]
  refine Finset.sum_congr rfl fun a _ => ?_
  rw [Finset.sum_range (fun d => ∑ b ∈ Finset.range B, ∑ c ∈ Finset.range C, g (((a.val * B + b) * C + c) * D + d))]
  refine Finset.sum_congr rfl fun d _ => ?_
  rw [Finset.sum_range (fun b => ∑ c ∈ Finset.range C, g (((a.val * B + b) * C + c) * D + d.val))]
  refine Finset.sum_congr rfl fun b _ => ?_
  rw [Finset.sum_range (fun c => g (((a.val * B + b.val) * C + c) * D + d.val))]

end Cert.LibRegroup
-- ==== Proof.Chain.lean ====
/-
  The two running rows after every grid point, and what the last point of a run copies out.

  Point by point (at any float instance): at the first point of a run of 16 the rows are "zero + this block's lane sums";
  at every other point they are "the rows the point before left + this block's lane sums"; the last point of a run also
  leaves the two rows, re-laid as [1,1,128] blocks, in the output windows.
  At the ideal instance it follows, by induction along a run and never by enumerating the grid, that after the last point
  of core q's run lane l of the loss row is the sum over the run's 16 points and each point's 8192 rows of the loss terms
  of that lane, and likewise the hit row.
-/
import proofs.«175419_j77489799954599_2_alg».proof.Proof.Pieces
import proofs.«175419_j77489799954599_2_alg».proof.Proof.LibRegroup

noncomputable section

namespace Cert.KernelIdeal.Focal

open Cert.KernelIdeal Cert.KernelIdeal.Gen Idealize.ShloMosaic Idealize.ShloMosaic.TcCoe Idealize.SL.Sem Idealize.ShloMosaic.ValueIdx Cert.Focal Cert.LibRegroup

section AnyInstance

variable {F : FTy → Type} [FloatOps F]
variable (m : (ℓ : Loc nD τ sig) → Buf (Elt F) ℓ)

/-- This point's lane sums of the loss terms. -/
def lossPart (c : Dev nD) (t : Fin cfg0.N) : FVec F S1x128 .f32 := laneSum (lossTerms (iblk m c 0 t) (iblk m c 1 t))

/-- This point's lane sums of the hit indicators. -/
def hitPart (c : Dev nD) (t : Fin cfg0.N) : FVec F S1x128 .f32 := laneSum (hitTerms (iblk m c 0 t) (iblk m c 1 t))

/-- First point of a run: both rows are zero plus this point's lane sums. -/
theorem rows_first (c : Dev nD) (t : Fin cfg0.N) (h0 : t.val % 16 = 0) (h1 : ¬t.val % 16 = 15) :
    (outsAt0 m c t.val t.isLt).2.2.1 = addf zeroRow (lossPart m c t)
    ∧ (outsAt0 m c t.val t.isLt).2.2.2 = addf zeroRow (hitPart m c t) := by
  rw [outsAt0_A m c t h0 h1]
  dsimp only
  exact ⟨lossRow_first (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t),
    hitRow_first (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)⟩

/-- Interior point: both rows are what the point before left plus this point's lane sums. -/
theorem rows_step (c : Dev nD) (t : Fin cfg0.N) (h0 : ¬t.val % 16 = 0) (h1 : ¬t.val % 16 = 15) :
    (outsAt0 m c t.val t.isLt).2.2.1 = addf (outsAt0 m c (t.val - 1) (Nat.lt_of_le_of_lt (Nat.sub_le _ _) t.isLt)).2.2.1 (lossPart m c t)
    ∧ (outsAt0 m c t.val t.isLt).2.2.2 = addf (outsAt0 m c (t.val - 1) (Nat.lt_of_le_of_lt (Nat.sub_le _ _) t.isLt)).2.2.2 (hitPart m c t) := by
  rw [outsAt0_B m c t h0 h1]
  dsimp only
  exact ⟨lossRow_step (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    hitRow_step (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- Last point of a run: the rows as at an interior point, and the output windows hold them re-laid. -/
theorem rows_last (c : Dev nD) (t : Fin cfg0.N) (h0 : ¬t.val % 16 = 0) (h1 : t.val % 16 = 15) :
    (outsAt0 m c t.val t.isLt).2.2.1 = addf (outsAt0 m c (t.val - 1) (Nat.lt_of_le_of_lt (Nat.sub_le _ _) t.isLt)).2.2.1 (lossPart m c t)
    ∧ (outsAt0 m c t.val t.isLt).2.2.2 = addf (outsAt0 m c (t.val - 1) (Nat.lt_of_le_of_lt (Nat.sub_le _ _) t.isLt)).2.2.2 (hitPart m c t)
    ∧ (outsAt0 m c t.val t.isLt).1 = asBlock (addf (outsAt0 m c (t.val - 1) (Nat.lt_of_le_of_lt (Nat.sub_le _ _) t.isLt)).2.2.1 (lossPart m c t))
    ∧ (outsAt0 m c t.val t.isLt).2.1 = asBlock (addf (outsAt0 m c (t.val - 1) (Nat.lt_of_le_of_lt (Nat.sub_le _ _) t.isLt)).2.2.2 (hitPart m c t)) := by
  rw [outsAt0_C m c t h0 h1]
  dsimp only
  exact ⟨lossRow_last (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    hitRow_last (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    lossOut_last (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    hitOut_last (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

end AnyInstance

/-! ## At the ideal instance: a run's rows are sums -/

section AtIdeal

variable (m : (ℓ : Loc nD τ sig) → Buf (Elt Ideal) ℓ)

/-- After the last point of core `q`'s run the loss row is, lane by lane, the sum of the run's 16 points' lane sums. -/
theorem lossRow_run (c : Dev nD) (q : ℕ) (h : 16 * q + 15 < cfg0.N) (i : S1x128.Idx) :
    (outsAt0 m c (16 * q + 15) h).2.2.1 i
      = ∑ s : Fin 16, lossPart m c ⟨16 * q + s.val, by have := s.isLt; omega⟩ i := by
  refine run_sum (β := EReal) 16 (fun n hn i => (outsAt0 m c n hn).2.2.1 i) (fun n hn i => lossPart m c ⟨n, hn⟩ i)
    (fun n hn i h0 => ?_) (fun n hn i hne => ?_) q i 15 (by norm_num) h
  · have hN : n < 32 := lt_of_lt_of_eq hn N_0
    have e := (rows_first m c ⟨n, hn⟩ h0 (by dsimp only; omega)).1
    show (outsAt0 m c n hn).2.2.1 i = _
    rw [e, addf_apply, zeroRow_apply, zero_add]
  · have hN : n + 1 < 32 := lt_of_lt_of_eq hn N_0
    show (outsAt0 m c (n + 1) hn).2.2.1 i = (outsAt0 m c n _).2.2.1 i + _
    by_cases h1 : (n + 1) % 16 = 15
    · rw [(rows_last m c ⟨n + 1, hn⟩ hne h1).1, addf_apply]; rfl
    · rw [(rows_step m c ⟨n + 1, hn⟩ hne h1).1, addf_apply]; rfl

/-- After the last point of core `q`'s run the hit row is, lane by lane, the sum of the run's 16 points' lane sums. -/
theorem hitRow_run (c : Dev nD) (q : ℕ) (h : 16 * q + 15 < cfg0.N) (i : S1x128.Idx) :
    (outsAt0 m c (16 * q + 15) h).2.2.2 i
      = ∑ s : Fin 16, hitPart m c ⟨16 * q + s.val, by have := s.isLt; omega⟩ i := by
  refine run_sum (β := EReal) 16 (fun n hn i => (outsAt0 m c n hn).2.2.2 i) (fun n hn i => hitPart m c ⟨n, hn⟩ i)
    (fun n hn i h0 => ?_) (fun n hn i hne => ?_) q i 15 (by norm_num) h
  · have hN : n < 32 := lt_of_lt_of_eq hn N_0
    have e := (rows_first m c ⟨n, hn⟩ h0 (by dsimp only; omega)).2
    show (outsAt0 m c n hn).2.2.2 i = _
    rw [e, addf_apply, zeroRow_apply, zero_add]
  · have hN : n + 1 < 32 := lt_of_lt_of_eq hn N_0
    show (outsAt0 m c (n + 1) hn).2.2.2 i = (outsAt0 m c n _).2.2.2 i + _
    by_cases h1 : (n + 1) % 16 = 15
    · rw [(rows_last m c ⟨n + 1, hn⟩ hne h1).2.1, addf_apply]; rfl
    · rw [(rows_step m c ⟨n + 1, hn⟩ hne h1).2, addf_apply]; rfl

/-- What the last point of core `q`'s run leaves in the loss output window: the run's loss row, re-laid. -/
theorem lossOut_run (c : Dev nD) (q : ℕ) (h : 16 * q + 15 < cfg0.N) (u u' : Fin 1) (l : Fin 128) :
    (outsAt0 m c (16 * q + 15) h).1 (ix3 u u' l)
      = ∑ s : Fin 16, lossPart m c ⟨16 * q + s.val, by have := s.isLt; omega⟩ (ix2 u' l) := by
  have hN : 16 * q + 15 < 32 := lt_of_lt_of_eq h N_0
  have e := rows_last m c ⟨16 * q + 15, h⟩ (by dsimp only; omega) (by dsimp only; omega)
  have e1 : (outsAt0 m c (16 * q + 15) h).1 = asBlock (F := Ideal) ((outsAt0 m c (16 * q + 15) h).2.2.1) := by
    have ea : (outsAt0 m c (16 * q + 15) h).1 = _ := e.2.2.1
    have eb : (outsAt0 m c (16 * q + 15) h).2.2.1 = _ := e.1
    rw [ea, eb]
  rw [e1]
  exact (asBlock_apply _ _ u u' l).trans (lossRow_run m c q h (ix2 u' l))

/-- What the last point of core `q`'s run leaves in the hit output window: the run's hit row, re-laid. -/
theorem hitOut_run (c : Dev nD) (q : ℕ) (h : 16 * q + 15 < cfg0.N) (u u' : Fin 1) (l : Fin 128) :
    (outsAt0 m c (16 * q + 15) h).2.1 (ix3 u u' l)
      = ∑ s : Fin 16, hitPart m c ⟨16 * q + s.val, by have := s.isLt; omega⟩ (ix2 u' l) := by
  have hN : 16 * q + 15 < 32 := lt_of_lt_of_eq h N_0
  have e := rows_last m c ⟨16 * q + 15, h⟩ (by dsimp only; omega) (by dsimp only; omega)
  have e1 : (outsAt0 m c (16 * q + 15) h).2.1 = asBlock (F := Ideal) ((outsAt0 m c (16 * q + 15) h).2.2.2) := by
    have ea : (outsAt0 m c (16 * q + 15) h).2.1 = _ := e.2.2.2
    have eb : (outsAt0 m c (16 * q + 15) h).2.2.2 = _ := e.2.1
    rw [ea, eb]
  rw [e1]
  exact (asBlock_apply _ _ u u' l).trans (hitRow_run m c q h (ix2 u' l))

end AtIdeal

end Cert.KernelIdeal.Focal

end
-- ==== Proof.Blocks.lean ====
/-
  Where an element of an input block comes from.

  The two flat arguments (33554432 inputs x, 33554432 labels t) are viewed as 262144 rows of 128 lanes before the region,
  and grid point number p = 16·core + step stages rows 8192·p … 8192·p + 8191 of each view. So element (r, l) of the block at
  point p is the flat element number (8192·p + r)·128 + l.
-/
import proofs.«175419_j77489799954599_2_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Focal

open Cert.KernelIdeal Cert.KernelIdeal.Gen Idealize.ShloMosaic Idealize.ShloMosaic.TcCoe Idealize.SL.Sem Idealize.ShloMosaic.ValueIdx
open Idealize.ShloMosaic.StableHlo

variable {F : FTy → Type} [FloatOps F]
variable (m : (ℓ : Loc nD τ sig) → Buf (Elt F) ℓ)

/-- The two input windows' block index at point `t`: row block `t`, lane block 0 — decided over the 32 points. -/
theorem in_index : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- The row view of the inputs, as the region finds it: the flat argument re-laid. -/
theorem V_rows_x (c : Dev nD) :
    (V m c main_v0 : S262144x128.Idx → Elt F .f32)
      = shapeCast S262144x128 (m ((c : Thread nD τ).loc main_arg0)) shapeCasts_S33554432_S262144x128 := by
  show StableHlo.after hostOps0 (fun b => m (c, b)) (Proc.devRef .tc main_v0) = _
  after_results
  rfl

/-- The row view of the labels, as the region finds it: the flat argument re-laid. -/
theorem V_rows_t (c : Dev nD) :
    (V m c main_v1 : S262144x128.Idx → Elt F .i32)
      = shapeCast S262144x128 (m ((c : Thread nD τ).loc main_arg1)) shapeCasts_S33554432_S262144x128 := by
  show StableHlo.after hostOps0 (fun b => m (c, b)) (Proc.devRef .tc main_v1) = _
  after_results
  rfl

/-- Row `R`, lane `l` of the re-laid array is flat element `128·R + l`. -/
theorem rows_apply {α : Type} (x : S33554432.Idx → α) (R : Fin 262144) (l : Fin 128) (n : Fin 33554432)
    (hn : n.val = R.val * 128 + l.val) :
    shapeCast S262144x128 x shapeCasts_S33554432_S262144x128 (ix2 R l) = x (ix1 n) :=
  shapeCast_apply x shapeCasts_S33554432_S262144x128 (ix2 R l) (ix1 n) (by
    rw [Shape.rowMajor_val_one, Shape.rowMajor_val_two]
    exact hn)

/-- Element `(r, l)` of the input block at point `t` is flat element `(8192·t + r)·128 + l` of the inputs. -/
theorem block_x_apply (c : Dev nD) (t : Fin cfg0.N) (r : Fin 8192) (l : Fin 128) (n : Fin 33554432)
    (hn : n.val = (t.val * 8192 + r.val) * 128 + l.val) :
    (iblk m c 0 t : Vec F S8192x128 .f32) (ix2 r l) = m ((c : Thread nD τ).loc main_arg0) (ix1 n) := by
  have hN : t.val < 32 := lt_of_lt_of_eq t.isLt (show cfg0.N = 32 from N_0)
  have hR : t.val * 8192 + r.val < 262144 := by have := r.isLt; omega
  have hi := in_index t
  unfold iblk
  rw [View.read_apply]
  show V m c main_v0 _ = _
  rw [V_rows_x, ← rows_apply (m ((c : Thread nD τ).loc main_arg0)) ⟨t.val * 8192 + r.val, hR⟩ l n hn]
  congr 1
  funext a
  apply Fin.ext
  match a with
  | ⟨0, _⟩ => show win0_0.index t 0 * 8192 + 1 * r.val = t.val * 8192 + r.val; rw [hi.1]; omega
  | ⟨1, _⟩ => show win0_0.index t 1 * 128 + 1 * l.val = l.val; rw [hi.2.1]; omega

/-- Element `(r, l)` of the label block at point `t` is flat element `(8192·t + r)·128 + l` of the labels. -/
theorem block_t_apply (c : Dev nD) (t : Fin cfg0.N) (r : Fin 8192) (l : Fin 128) (n : Fin 33554432)
    (hn : n.val = (t.val * 8192 + r.val) * 128 + l.val) :
    (iblk m c 1 t : Vec F S8192x128 .i32) (ix2 r l) = m ((c : Thread nD τ).loc main_arg1) (ix1 n) := by
  have hN : t.val < 32 := lt_of_lt_of_eq t.isLt (show cfg0.N = 32 from N_0)
  have hR : t.val * 8192 + r.val < 262144 := by have := r.isLt; omega
  have hi := in_index t
  unfold iblk
  rw [View.read_apply]
  show V m c main_v1 _ = _
  rw [V_rows_t, ← rows_apply (m ((c : Thread nD τ).loc main_arg1)) ⟨t.val * 8192 + r.val, hR⟩ l n hn]
  congr 1
  funext a
  apply Fin.ext
  match a with
  | ⟨0, _⟩ => show win0_1.index t 0 * 8192 + 1 * r.val = t.val * 8192 + r.val; rw [hi.2.2.1]; omega
  | ⟨1, _⟩ => show win0_1.index t 1 * 128 + 1 * l.val = l.val; rw [hi.2.2.2]; omega

end Cert.KernelIdeal.Focal

end
-- ==== Proof.Spec.lean ====
/-
  The two results, as functions of the two flat argument arrays, over the extended reals.

  With E the per-element loss term (or hit indicator), x the 33554432 inputs and t the labels,
      total E x t = Σ_n E (x n) (t n),
  the loss is −(0 + total) / 2²⁵ and the accuracy (0 + total) / 2²⁵ (the zero is the reduction's initial value, the divisor
  the f32 word of 33554432).
  The same total is reached through 2 × 128 partial sums: partial sum (c, l) collects the elements
  n = ((16·c + s)·8192 + r)·128 + l over s < 16 and r < 8192 — lane l of the row blocks that core c visits. Sums over the
  extended reals commute and associate without any finiteness, so the total is the sum of the partial sums.
-/
import Idealize.ShloMosaic.Lib.ValueIdx
import proofs.«175419_j77489799954599_2_alg».proof.Proof.Elementwise
import proofs.«175419_j77489799954599_2_alg».proof.Proof.LibRegroup

noncomputable section

namespace Cert.Focal

open Idealize.ShloMosaic Idealize.ShloMosaic.ValueIdx Cert.LibRegroup

/-- The shape of the flat arguments. -/
abbrev Flat : Shape := ⟨1, ![33554432]⟩

variable (E : Ideal .f32 → BitVec 32 → Ideal .f32) (x : Flat.Idx → Ideal .f32) (t : Flat.Idx → BitVec 32)

/-- Element number `n`'s term (zero past the arrays' end, which no sum below reaches). -/
def flat (n : ℕ) : EReal := if h : n < 33554432 then E (x (ix1 ⟨n, h⟩)) (t (ix1 ⟨n, h⟩)) else 0

/-- The sum of every element's term. -/
def total : EReal := ∑ n : Fin 33554432, E (x (ix1 n)) (t (ix1 n))

/-- Partial sum `(c, l)`: lane `l` of the 16 row blocks of 8192 rows that core `c` visits. -/
def perLane (c l : ℕ) : EReal := ∑ s : Fin 16, ∑ r : Fin 8192, flat E x t (((c * 16 + s.val) * 8192 + r.val) * 128 + l)

/-- The total is the sum of the 2 × 128 partial sums. -/
theorem total_eq : total E x t = ∑ c : Fin 2, ∑ l : Fin 128, perLane E x t c.val l.val := by
  have h1 : total E x t = ∑ n : Fin 33554432, flat E x t n.val := by
    unfold total
    refine Finset.sum_congr rfl fun n _ => ?_
    unfold flat
    rw [dif_pos n.isLt]
  rw [h1, sum_fin_four (flat E x t) 2 16 8192 128 33554432 (by norm_num)]
  rfl

/-- A sum over the indices of a [a, 1, b] array is the double sum over its first and last coordinates. -/
theorem sum_idx_a1b {M : Type*} [AddCommMonoid M] {a b : ℕ} (f : (⟨3, ![a, 1, b]⟩ : Shape).Idx → M) :
    ∑ j, f j = ∑ p : Fin a, ∑ q : Fin b, f (ix3 p (0 : Fin 1) q) := by
  let e : (⟨3, ![a, 1, b]⟩ : Shape).Idx ≃ Fin a × Fin b :=
    { toFun := fun j => (j 0, j 2)
      invFun := fun p => ix3 p.1 (0 : Fin 1) p.2
      left_inv := fun j => by
        funext d
        match d with
        | ⟨0, _⟩ => rfl
        | ⟨1, _⟩ => exact Subsingleton.elim (α := Fin 1) _ _
        | ⟨2, _⟩ => rfl
      right_inv := fun _ => rfl }
  rw [← Equiv.sum_comp e.symm f, Fintype.sum_prod_type]
  rfl

/-- The loss: the negated total over `2²⁵`, as the scalar result array. -/
def lossOut : (⟨0, ![]⟩ : Shape).Idx → Ideal .f32 := fun _ =>
  FloatOps.hostDivf (F := Ideal) (φ := .f32)
    (FloatOps.hostNegf (F := Ideal) (φ := .f32) (Ideal.ofBits .f32 0x00000000#32 + total lossEl x t))
    (Ideal.ofBits .f32 0x4C000000#32)

/-- The accuracy: the total of the hit indicators over `2²⁵`, as the scalar result array. -/
def hitOut : (⟨0, ![]⟩ : Shape).Idx → Ideal .f32 := fun _ =>
  FloatOps.hostDivf (F := Ideal) (φ := .f32)
    (Ideal.ofBits .f32 0x00000000#32 + total hitEl x t)
    (Ideal.ofBits .f32 0x4C000000#32)

end Cert.Focal

end
-- ==== Proof.Final.lean ====
/-
  The two arrays the region leaves, entry by entry, in terms of the flat arguments.

  Each output array is [2, 1, 128]: block c of it is written back once, after the last point of core c's run, from the
  output window, which then holds the core's running row. A running row's lane l after the run is the sum, over the run's 16
  points and each block's 8192 rows, of the terms of the elements those rows hold at lane l; an element (r, l) of the block
  at point p is flat element (8192·p + r)·128 + l. So entry (c, 0, l) is the partial sum (c, l) of the specification, and the
  two blocks cover the array.
-/
import proofs.«175419_j77489799954599_2_alg».proof.Proof.Chain
import proofs.«175419_j77489799954599_2_alg».proof.Proof.Blocks
import proofs.«175419_j77489799954599_2_alg».proof.Proof.Spec

noncomputable section

namespace Cert.KernelIdeal.Focal

open Cert.KernelIdeal Cert.KernelIdeal.Gen Idealize.ShloMosaic Idealize.ShloMosaic.TcCoe Idealize.SL.Sem Idealize.ShloMosaic.ValueIdx Cert.Focal
open Idealize.ShloMosaic.Pipeline (Dat)

variable (m : (ℓ : Loc nD τ sig) → Buf (Elt Ideal) ℓ)

/-- The flat inputs and labels of core `c`'s device, as plain arrays. -/
abbrev argX (c : Dev nD) : Flat.Idx → Ideal .f32 := m ((c : Thread nD τ).loc main_arg0)
abbrev argT (c : Dev nD) : Flat.Idx → BitVec 32 := m ((c : Thread nD τ).loc main_arg1)

/-- Lane `l` of a block's loss lane sums: the sum over the rows of the loss terms. -/
theorem lossLane_apply (x0 : FVec Ideal S8192x128 .f32) (x1 : IVec S8192x128 32) (u : Fin 1) (l : Fin 128) :
    laneSum (lossTerms x0 x1) (ix2 u l) = ∑ r : Fin 8192, lossEl (x0 (ix2 r l)) (x1 (ix2 r l)) :=
  (laneSum_apply _ u l).trans (Finset.sum_congr rfl fun r _ => lossTerms_apply x0 x1 _)

/-- Lane `l` of a block's hit lane sums: the sum over the rows of the hit indicators. -/
theorem hitLane_apply (x0 : FVec Ideal S8192x128 .f32) (x1 : IVec S8192x128 32) (u : Fin 1) (l : Fin 128) :
    laneSum (hitTerms x0 x1) (ix2 u l) = ∑ r : Fin 8192, hitEl (x0 (ix2 r l)) (x1 (ix2 r l)) :=
  (laneSum_apply _ u l).trans (Finset.sum_congr rfl fun r _ => hitTerms_apply x0 x1 _)

/-- The two output windows' block index at point `t`: block `t / 16` (the core), decided over the 32 points. -/
theorem out_index : ∀ t : Fin cfg0.N, win0_2.index t 0 = t.val / 16 ∧ win0_2.index t 1 = 0 ∧ win0_2.index t 2 = 0
    ∧ win0_3.index t 0 = t.val / 16 ∧ win0_3.index t 1 = 0 ∧ win0_3.index t 2 = 0 :=
  (by decide +kernel : ∀ t : Fin grid0.N, win0_2.index t 0 = t.val / 16 ∧ win0_2.index t 1 = 0 ∧ win0_2.index t 2 = 0
    ∧ win0_3.index t 0 = t.val / 16 ∧ win0_3.index t 1 = 0 ∧ win0_3.index t 2 = 0)

/-- Lane `l` of a point's loss lane sums, in terms of the flat arguments: the sum over the block's rows. -/
theorem lossPart_apply (c : Dev nD) (t : Fin cfg0.N) (u : Fin 1) (l : Fin 128) :
    lossPart m c t (ix2 u l) = ∑ r : Fin 8192, flat lossEl (argX m c) (argT m c) ((t.val * 8192 + r.val) * 128 + l.val) := by
  have hN : t.val < 32 := lt_of_lt_of_eq t.isLt N_0
  refine (lossLane_apply (iblk m c 0 t) (iblk m c 1 t) u l).trans ?_
  refine Finset.sum_congr rfl fun r _ => ?_
  have hn : (t.val * 8192 + r.val) * 128 + l.val < 33554432 := by have := r.isLt; have := l.isLt; omega
  have ex := block_x_apply m c t r l ⟨_, hn⟩ rfl
  have et := block_t_apply m c t r l ⟨_, hn⟩ rfl
  unfold flat
  rw [dif_pos hn]
  exact congrArg₂ lossEl ex et

/-- The loss array the region leaves: entry `(c, 0, l)` is partial sum `(c, l)`. -/
def lossArr (c : Dev nD) : Buf (Elt Ideal) ((c : Thread nD τ).loc main_v2_0) :=
  fun j => perLane lossEl (argX m c) (argT m c) (j 0).val (j 2).val

/-- What the last point of a run leaves in the loss output window, entry by entry. -/
theorem lossOut_point (c : Dev nD) (t : Fin cfg0.N) (h15 : t.val % 16 = 15) (y : S1x1x128.Idx) (cv lv : ℕ)
    (hc : cv = t.val / 16) (hl : lv = (y 2).val) :
    (outsAt0 m c t.val t.isLt).1 y = perLane lossEl (argX m c) (argT m c) cv lv := by
  subst hc hl
  have hN : t.val < 32 := lt_of_lt_of_eq t.isLt N_0
  have hq : t.val = 16 * (t.val / 16) + 15 := by omega
  obtain ⟨u, u', l, rfl⟩ : ∃ (u u' : Fin 1) (l : Fin 128), y = ix3 u u' l := ⟨y 0, y 1, y 2, eq_ix3 y⟩
  have key : ∀ (n : ℕ) (hn : n < cfg0.N) (q : ℕ) (e : n = 16 * q + 15),
      (outsAt0 m c n hn).1 (ix3 u u' l)
        = ∑ s : Fin 16, lossPart m c ⟨16 * q + s.val, by have := s.isLt; omega⟩ (ix2 u' l) := by
    intro n hn q e
    subst e
    exact lossOut_run m c q hn u u' l
  rw [key t.val t.isLt (t.val / 16) hq]
  unfold perLane
  refine Finset.sum_congr rfl fun s _ => ?_
  rw [lossPart_apply]
  refine Finset.sum_congr rfl fun r _ => congrArg _ ?_
  show ((16 * (t.val / 16) + s.val) * 8192 + r.val) * 128 + l.val = ((t.val / 16 * 16 + s.val) * 8192 + r.val) * 128 + l.val
  omega

/-- WHAT A WRITE-BACK WRITES: the flushing point's block of the loss array. -/
theorem lossFlushed (c : Dev nD) (t : Fin cfg0.N) (hf : (cfg0.win 2).flush t = true) :
    (dats m 0 c).flushed 2 t = ((cfg0.win 2).blk t).view.read (Elt Ideal) (lossArr m c) := by
  have h15 : t.val % 16 = 15 := (flush0_2 t).mp hf
  obtain ⟨a0, a1, a2, b0, b1, b2⟩ := out_index t
  show (cfg0.win 2).cut (grid0.coords t) ((dats m 0 c).after 2 t) = _
  rw [after0_2]
  funext j
  show (outsAt0 m c t.val t.isLt).1 j
    = perLane lossEl (argX m c) (argT m c) ((((cfg0.win 2).blk t).view.emb j) 0).val ((((cfg0.win 2).blk t).view.emb j) 2).val
  have hj0 : (j 0).val < 1 := (j 0).isLt
  refine lossOut_point m c t h15 j _ _ ?_ ?_
  · show win0_2.index t 0 * 1 + 1 * (j 0).val = t.val / 16
    rw [a0]; omega
  · show win0_2.index t 2 * 128 + 1 * (j 2).val = (j 2).val
    rw [a2]; omega

/-- An index of the loss array is in point `t`'s block iff each coordinate is in the block's range on its axis. -/
theorem loss_mem_blk (t : Fin cfg0.N) (i : S2x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v2_0).slice (win0_2.rect t)).set ↔ _
  rw [View.set_slice_whole, Rect.mem_set_unit]
  exact Iff.rfl

/-- Every entry of the loss array is in the block the last point of its core's run writes back. -/
theorem loss_cover (i : S2x1x128.Idx) :
    ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 128 := (i 2).isLt
  have hlt : 16 * (i 0).val + 15 < cfg0.N := by rw [show cfg0.N = 32 from N_0]; omega
  obtain ⟨a0, a1, a2, b0, b1, b2⟩ := out_index ⟨16 * (i 0).val + 15, hlt⟩
  refine ⟨⟨16 * (i 0).val + 15, hlt⟩, (flush0_2 _).mpr (by show (16 * (i 0).val + 15) % 16 = 15; omega), ?_⟩
  rw [loss_mem_blk]
  intro a
  match a with
  | ⟨0, _⟩ =>
    show win0_2.index ⟨16 * (i 0).val + 15, hlt⟩ 0 * 1 ≤ (i 0).val ∧ (i 0).val < win0_2.index ⟨16 * (i 0).val + 15, hlt⟩ 0 * 1 + 1
    rw [a0]
    show (16 * (i 0).val + 15) / 16 * 1 ≤ (i 0).val ∧ (i 0).val < (16 * (i 0).val + 15) / 16 * 1 + 1
    omega
  | ⟨1, _⟩ =>
    show win0_2.index ⟨16 * (i 0).val + 15, hlt⟩ 1 * 1 ≤ (i 1).val ∧ (i 1).val < win0_2.index ⟨16 * (i 0).val + 15, hlt⟩ 1 * 1 + 1
    rw [a1]; omega
  | ⟨2, _⟩ =>
    show win0_2.index ⟨16 * (i 0).val + 15, hlt⟩ 2 * 128 ≤ (i 2).val ∧ (i 2).val < win0_2.index ⟨16 * (i 0).val + 15, hlt⟩ 2 * 128 + 128
    rw [a2]; omega

/-- THE LOSS ARRAY after the region: the 2 × 128 partial sums. -/
theorem lossFinal (c : Dev nD) : (dats m 0 c).arrAt 2 cfg0.N = lossArr m c :=
  (dats m 0 c).arrAt_eq_of_cover 2 (lossArr m c) (lossFlushed m c) loss_cover

/-- Lane `l` of a point's hit lane sums, in terms of the flat arguments: the sum over the block's rows. -/
theorem hitPart_apply (c : Dev nD) (t : Fin cfg0.N) (u : Fin 1) (l : Fin 128) :
    hitPart m c t (ix2 u l) = ∑ r : Fin 8192, flat hitEl (argX m c) (argT m c) ((t.val * 8192 + r.val) * 128 + l.val) := by
  have hN : t.val < 32 := lt_of_lt_of_eq t.isLt N_0
  refine (hitLane_apply (iblk m c 0 t) (iblk m c 1 t) u l).trans ?_
  refine Finset.sum_congr rfl fun r _ => ?_
  have hn : (t.val * 8192 + r.val) * 128 + l.val < 33554432 := by have := r.isLt; have := l.isLt; omega
  have ex := block_x_apply m c t r l ⟨_, hn⟩ rfl
  have et := block_t_apply m c t r l ⟨_, hn⟩ rfl
  unfold flat
  rw [dif_pos hn]
  exact congrArg₂ hitEl ex et

/-- The hit array the region leaves: entry `(c, 0, l)` is partial sum `(c, l)`. -/
def hitArr (c : Dev nD) : Buf (Elt Ideal) ((c : Thread nD τ).loc main_v2_1) :=
  fun j => perLane hitEl (argX m c) (argT m c) (j 0).val (j 2).val

/-- What the last point of a run leaves in the hit output window, entry by entry. -/
theorem hitOut_point (c : Dev nD) (t : Fin cfg0.N) (h15 : t.val % 16 = 15) (y : S1x1x128.Idx) (cv lv : ℕ)
    (hc : cv = t.val / 16) (hl : lv = (y 2).val) :
    (outsAt0 m c t.val t.isLt).2.1 y = perLane hitEl (argX m c) (argT m c) cv lv := by
  subst hc hl
  have hN : t.val < 32 := lt_of_lt_of_eq t.isLt N_0
  have hq : t.val = 16 * (t.val / 16) + 15 := by omega
  obtain ⟨u, u', l, rfl⟩ : ∃ (u u' : Fin 1) (l : Fin 128), y = ix3 u u' l := ⟨y 0, y 1, y 2, eq_ix3 y⟩
  have key : ∀ (n : ℕ) (hn : n < cfg0.N) (q : ℕ) (e : n = 16 * q + 15),
      (outsAt0 m c n hn).2.1 (ix3 u u' l)
        = ∑ s : Fin 16, hitPart m c ⟨16 * q + s.val, by have := s.isLt; omega⟩ (ix2 u' l) := by
    intro n hn q e
    subst e
    exact hitOut_run m c q hn u u' l
  rw [key t.val t.isLt (t.val / 16) hq]
  unfold perLane
  refine Finset.sum_congr rfl fun s _ => ?_
  rw [hitPart_apply]
  refine Finset.sum_congr rfl fun r _ => congrArg _ ?_
  show ((16 * (t.val / 16) + s.val) * 8192 + r.val) * 128 + l.val = ((t.val / 16 * 16 + s.val) * 8192 + r.val) * 128 + l.val
  omega

/-- WHAT A WRITE-BACK WRITES: the flushing point's block of the hit array. -/
theorem hitFlushed (c : Dev nD) (t : Fin cfg0.N) (hf : (cfg0.win 3).flush t = true) :
    (dats m 0 c).flushed 3 t = ((cfg0.win 3).blk t).view.read (Elt Ideal) (hitArr m c) := by
  have h15 : t.val % 16 = 15 := (flush0_3 t).mp hf
  obtain ⟨a0, a1, a2, b0, b1, b2⟩ := out_index t
  show (cfg0.win 3).cut (grid0.coords t) ((dats m 0 c).after 3 t) = _
  rw [after0_3]
  funext j
  show (outsAt0 m c t.val t.isLt).2.1 j
    = perLane hitEl (argX m c) (argT m c) ((((cfg0.win 3).blk t).view.emb j) 0).val ((((cfg0.win 3).blk t).view.emb j) 2).val
  have hj0 : (j 0).val < 1 := (j 0).isLt
  refine hitOut_point m c t h15 j _ _ ?_ ?_
  · show win0_3.index t 0 * 1 + 1 * (j 0).val = t.val / 16
    rw [b0]; omega
  · show win0_3.index t 2 * 128 + 1 * (j 2).val = (j 2).val
    rw [b2]; omega

/-- An index of the hit array is in point `t`'s block iff each coordinate is in the block's range on its axis. -/
theorem hit_mem_blk (t : Fin cfg0.N) (i : S2x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v2_1).slice (win0_3.rect t)).set ↔ _
  rw [View.set_slice_whole, Rect.mem_set_unit]
  exact Iff.rfl

/-- Every entry of the hit array is in the block the last point of its core's run writes back. -/
theorem hit_cover (i : S2x1x128.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 128 := (i 2).isLt
  have hlt : 16 * (i 0).val + 15 < cfg0.N := by rw [show cfg0.N = 32 from N_0]; omega
  obtain ⟨a0, a1, a2, b0, b1, b2⟩ := out_index ⟨16 * (i 0).val + 15, hlt⟩
  refine ⟨⟨16 * (i 0).val + 15, hlt⟩, (flush0_3 _).mpr (by show (16 * (i 0).val + 15) % 16 = 15; omega), ?_⟩
  rw [hit_mem_blk]
  intro a
  match a with
  | ⟨0, _⟩ =>
    show win0_3.index ⟨16 * (i 0).val + 15, hlt⟩ 0 * 1 ≤ (i 0).val ∧ (i 0).val < win0_3.index ⟨16 * (i 0).val + 15, hlt⟩ 0 * 1 + 1
    rw [b0]
    show (16 * (i 0).val + 15) / 16 * 1 ≤ (i 0).val ∧ (i 0).val < (16 * (i 0).val + 15) / 16 * 1 + 1
    omega
  | ⟨1, _⟩ =>
    show win0_3.index ⟨16 * (i 0).val + 15, hlt⟩ 1 * 1 ≤ (i 1).val ∧ (i 1).val < win0_3.index ⟨16 * (i 0).val + 15, hlt⟩ 1 * 1 + 1
    rw [b1]; omega
  | ⟨2, _⟩ =>
    show win0_3.index ⟨16 * (i 0).val + 15, hlt⟩ 2 * 128 ≤ (i 2).val ∧ (i 2).val < win0_3.index ⟨16 * (i 0).val + 15, hlt⟩ 2 * 128 + 128
    rw [b2]; omega

/-- THE HIT ARRAY after the region: the 2 × 128 partial sums. -/
theorem hitFinal (c : Dev nD) : (dats m 0 c).arrAt 3 cfg0.N = hitArr m c :=
  (dats m 0 c).arrAt_eq_of_cover 3 (hitArr m c) (hitFlushed m c) hit_cover

end Cert.KernelIdeal.Focal

end
-- ==== Proof.KernelRun.lean ====
/-
  The kernel program's run, read: its two results are the specification's.

  After the region the host sums each [2, 1, 128] array over all its entries from zero, negates the loss sum, and divides
  by 2²⁵. The arrays hold the 2 × 128 partial sums, whose sum is the total.
-/
import proofs.«175419_j77489799954599_2_alg».proof.Proof.Final
import Idealize.ShloMosaic.Lib.StableHlo.Run
import Idealize.ShloMosaic.PureOps.Ideal.Laws

noncomputable section

namespace Cert.KernelIdeal.Focal

open Cert.KernelIdeal Cert.KernelIdeal.Gen Idealize.ShloMosaic Idealize.ShloMosaic.TcCoe Idealize.SL.Sem Idealize.ShloMosaic.ValueIdx Cert.Focal
open Idealize.ShloMosaic.Pipeline (Dat)
open Idealize.ShloMosaic.StableHlo

variable (m : (ℓ : Loc nD τ sig) → Buf (Elt Ideal) ℓ) (ρ : Dev nD → PrngReg)

/-- The host's sum of a [2, 1, 128] array over all three axes, from zero: the initial value plus the sum of every entry. -/
theorem reduceAll (A : S2x1x128.Idx → Ideal .f32) (i : S_.Idx) :
    Host.reduceAdd (F := Ideal) A (constant (F := Ideal) S_ .f32 0x00000000#32) reducesTo_S2x1x128_S_d0_1_2 h_S_ i
      = Ideal.ofBits .f32 0x00000000#32 + ∑ j : S2x1x128.Idx, A j := by
  simp only [Host.reduceAdd, Ideal.hostReduceAdd_def]
  exact Ideal.hostReduceAdd_total reducesTo_S2x1x128_S_d0_1_2 (fun b => b.elim0) A _ i

/-- The two arrays the region leaves, typed as plain [2, 1, 128] arrays of extended reals. -/
abbrev lossSums (c : Dev nD) : S2x1x128.Idx → Ideal .f32 := lossArr m c
abbrev hitSums (c : Dev nD) : S2x1x128.Idx → Ideal .f32 := hitArr m c

/-- The sum of the loss array's entries is the total of the loss terms. -/
theorem lossArr_sum (c : Dev nD) :
    ∑ j : S2x1x128.Idx, lossSums m c j = total lossEl (argX m c) (argT m c) := by
  rw [sum_idx_a1b, total_eq]
  rfl

/-- The sum of the hit array's entries is the total of the hit indicators. -/
theorem hitArr_sum (c : Dev nD) :
    ∑ j : S2x1x128.Idx, hitSums m c j = total hitEl (argX m c) (argT m c) := by
  rw [sum_idx_a1b, total_eq]
  rfl

/-- The loss result after the host's tail. -/
theorem tail_loss (c : Dev nD) :
    Pipeline.afterTail₀ cfgs (dats m) 0 (V0 m) [hostOps1] c main_v5 = lossOut (argX m c) (argT m c) := by
  unfold Pipeline.afterTail₀
  show StableHlo.after hostOps1 _ (Proc.devRef .tc main_v5) = _
  after_results
  rw [show Pipeline.withArrays (cfgs 0).spec c (V0 m c) (fun w => (dats m 0 c).arrAt w (cfgs 0).N) (Proc.tc.devRef main_v2_0) = lossSums m c
    from (Pipeline.withArrays_arr spec0 launch0.win.arr_inj c _ _ 2).trans (lossFinal m c)]
  funext i
  show FloatOps.hostDivf (FloatOps.hostNegf (Host.reduceAdd _ _ _ _ i)) _ = _
  rw [reduceAll (lossSums m c) i, lossArr_sum]
  rfl

/-- The hit result after the host's tail. -/
theorem tail_hit (c : Dev nD) :
    Pipeline.afterTail₀ cfgs (dats m) 0 (V0 m) [hostOps1] c main_v7 = hitOut (argX m c) (argT m c) := by
  unfold Pipeline.afterTail₀
  show StableHlo.after hostOps1 _ (Proc.devRef .tc main_v7) = _
  after_results
  rw [show Pipeline.withArrays (cfgs 0).spec c (V0 m c) (fun w => (dats m 0 c).arrAt w (cfgs 0).N) (Proc.tc.devRef main_v2_1) = hitSums m c
    from (Pipeline.withArrays_arr spec0 launch0.win.arr_inj c _ _ 3).trans (hitFinal m c)]
  funext i
  show FloatOps.hostDivf (Host.reduceAdd _ _ _ _ i) _ = _
  rw [reduceAll (hitSums m c) i, hitArr_sum]
  rfl

/-- THE RUN, READ: every weakly fair execution of the kernel program ends with its two results at the specification's loss
    and accuracy of the flat arguments, the arguments unchanged. -/
theorem run : θ_run defs (onTc (τ := τ) (main (F := Ideal))) ⟨m, fun _ => 0, ρ⟩ fun r => ∀ c : Dev nD,
      r.2.mem ((c.tc : Thread nD τ).loc main_v5) = lossOut (argX m c) (argT m c)
      ∧ r.2.mem ((c.tc : Thread nD τ).loc main_v7) = hitOut (argX m c) (argT m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_loss m c),
      ((h c).2 main_v7 (Pipeline.mem_restRefs_of main_v7 (by decide) (by decide))).trans (tail_hit m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Focal

end
-- ==== Proof.RefValue.lean ====
/-
  The reference program's two results are the specification's.

  Its loss is −(0 + Σ_n term n) / 2²⁵ with the square of |y| spelt as the real power 2, its accuracy (0 + Σ_n hit n) / 2²⁵
  with the comparison bit converted directly; element by element these are the specification's loss term and hit
  indicator, and the reductions over the one axis of the flat arrays are the sums over all elements.
-/
import proofs.«175419_j77489799954599_2_alg».proof.Proof.Gen.ReferenceIdeal.Read
import proofs.«175419_j77489799954599_2_alg».proof.Proof.Spec

noncomputable section

namespace Cert.ReferenceIdeal.Focal

open Cert.ReferenceIdeal Cert.ReferenceIdeal.Gen Cert.ReferenceIdeal.Read Idealize.ShloMosaic Idealize.ShloMosaic.ValueIdx Cert.Focal

variable (x0 : (⟨S33554432, .f32⟩ : BufTy).Contents (Elt Ideal)) (x1 : (⟨S33554432, .i32⟩ : BufTy).Contents (Elt Ideal))

/-- A sum over the indices of a flat array is the sum over its one coordinate. -/
theorem sum_idx1 {M : Type*} [AddCommMonoid M] {n : ℕ} (f : (⟨1, ![n]⟩ : Shape).Idx → M) :
    ∑ j, f j = ∑ a : Fin n, f (ix1 a) := by
  let e : (⟨1, ![n]⟩ : Shape).Idx ≃ Fin n :=
    { toFun := fun j => j 0
      invFun := fun a => ix1 a
      left_inv := fun j => (eq_ix1 j).symm
      right_inv := fun _ => rfl }
  exact (Equiv.sum_comp e.symm f).symm

/-- The reference's selected term at element `i` is the specification's loss term. -/
theorem loss_term (i : S33554432.Idx) : val_main_v21 (F := Ideal) x0 x1 i = lossEl (x0 i) (x1 i) := by
  simp only [val_main_v21_apply, val_main_v2_apply, val_main_v1_apply, val_main_c_apply, val_main_v11_apply,
    val_main_v9_apply, val_main_v3_apply, val_main_v8_apply, val_main_v6_apply, val_main_v5_apply, val_main_v4_apply,
    val_main_cst_apply, val_main_v7_apply, val_main_cst_0_apply, val_main_v10_apply, val_main_cst_1_apply,
    val_main_v20_apply, val_main_v18_apply, val_main_v14_apply, val_main_v13_apply, val_main_v12_apply,
    val_main_cst_2_apply, val_main_v17_apply, val_main_v15_apply, val_main_v16_apply, val_main_cst_3_apply,
    val_main_v19_apply, val_main_cst_4_apply]
  exact lossElPow_eq (x0 i) (x1 i)

/-- The reference's converted comparison at element `i` is the specification's hit indicator. -/
theorem hit_term (i : S33554432.Idx) : val_main_v27 (F := Ideal) x0 x1 i = hitEl (x0 i) (x1 i) := by
  simp only [val_main_v27_apply, val_main_v26_apply, val_main_v25_apply, val_main_v0_apply]
  exact hitElBit_eq (x0 i) (x1 i)

/-- The reference's loss is the specification's. -/
theorem loss_eq : val_main_v24 (F := Ideal) x0 x1 = lossOut x0 x1 := by
  funext i
  rw [val_main_v24_apply, val_main_v23_apply, val_main_v22_apply, val_main_cst_5_apply, val_main_cst_6_apply]
  have hs : ∑ j : S33554432.Idx, val_main_v21 (F := Ideal) x0 x1 j = total lossEl x0 x1 := by
    unfold total
    rw [sum_idx1]
    exact Finset.sum_congr rfl fun n _ => loss_term x0 x1 (ix1 n)
  rw [hs]
  rfl

/-- The reference's accuracy is the specification's. -/
theorem hit_eq : val_main_v29 (F := Ideal) x0 x1 = hitOut x0 x1 := by
  funext i
  rw [val_main_v29_apply, val_main_v28_apply, val_main_cst_7_apply, val_main_cst_8_apply]
  have hs : ∑ j : S33554432.Idx, val_main_v27 (F := Ideal) x0 x1 j = total hitEl x0 x1 := by
    unfold total
    rw [sum_idx1]
    exact Finset.sum_congr rfl fun n _ => hit_term x0 x1 (ix1 n)
  rw [hs]
  rfl

end Cert.ReferenceIdeal.Focal

end
-- ==== Proof.lean ====
/-
  A focal loss and an accuracy over 33554432 elements: a two-core, sixteen-step accumulating kernel against the flat
  reference, equal over the extended reals.

  Per element, with input x and integer label t: the loss term is log x · |1 − x|² · 0.75 where t = 1 and
  log (1 − x) · |x|² · 0.25 elsewhere; the hit indicator is 1 where x rounded to even equals t. The loss is −(Σ terms) / 2²⁵,
  the accuracy (Σ hits) / 2²⁵.

  The kernel views the flat arrays as 262144 rows of 128 lanes; core c visits row blocks 16·c … 16·c + 15 of 8192 rows, sums
  each block's terms down the rows, lane by lane, into two running rows (reset at its first block), and copies them out after
  its last block; the host then sums the 2 × 128 partial sums of each kind. The reference sums all elements at once. Over
  the extended reals addition is commutative and associative at every value, infinite ones included, so the two groupings
  of the same 33554432 terms agree, and no finiteness of the inputs is used. The per-element functions agree as well: |y|
  to the real power 2 is |y| · |y| at every extended real (both sides are +∞ at an infinite y), and a comparison bit read
  unsigned is its 32-bit zero-extension read signed.

  Modules: Square and Elementwise (the per-element laws), LibRegroup (the two laws of finite sums: a run's running sum, and
  the regrouping of a sum over consecutive naturals by mixed-radix digits), Spec (the results as functions of the flat
  arguments, and the total as the sum of the partial sums), Parts / Pieces / Chain (the body's arithmetic, what each control
  case leaves, the running rows after a run), Blocks (which flat element a block's entry is), Final (the two arrays the
  region leaves), KernelRun (the host's tail, and the kernel program's run), RefValue (the reference's results).
-/
import proofs.«175419_j77489799954599_2_alg».proof.Defs
import proofs.«175419_j77489799954599_2_alg».proof.Proof.Gen.Kernel
import proofs.«175419_j77489799954599_2_alg».proof.Proof.Gen.Kernel.Skeleton
import proofs.«175419_j77489799954599_2_alg».proof.Proof.Gen.Kernel.Launch
import proofs.«175419_j77489799954599_2_alg».proof.Proof.Gen.Kernel.Points
import proofs.«175419_j77489799954599_2_alg».proof.Proof.Gen.Kernel.Frame
import proofs.«175419_j77489799954599_2_alg».proof.Proof.Gen.KernelIdeal
import proofs.«175419_j77489799954599_2_alg».proof.Proof.Gen.KernelIdeal.Skeleton
import proofs.«175419_j77489799954599_2_alg».proof.Proof.Gen.KernelIdeal.Launch
import proofs.«175419_j77489799954599_2_alg».proof.Proof.Gen.KernelIdeal.Points
import proofs.«175419_j77489799954599_2_alg».proof.Proof.Gen.KernelIdeal.Frame
import proofs.«175419_j77489799954599_2_alg».proof.Proof.Gen.ReferenceIdeal
import proofs.«175419_j77489799954599_2_alg».proof.Proof.Gen.Pre_finite_inputs
import proofs.«175419_j77489799954599_2_alg».proof.Proof.Gen.ReferenceIdeal.Run
import proofs.«175419_j77489799954599_2_alg».proof.Proof.Gen.ReferenceIdeal.Read
import proofs.«175419_j77489799954599_2_alg».proof.Proof.KernelRun
import proofs.«175419_j77489799954599_2_alg».proof.Proof.RefValue
import Idealize.ShloMosaic.Adequacy
import Idealize.ShloMosaic.Init

noncomputable section

namespace Cert.Proof

open Idealize.ShloMosaic Idealize.SL.Sem

/-- The three programs run, fault-free, and leave their arguments as they found them: the two kernel programs by their
    frame runs, the reference by its run with the results dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The idealization rewrote nothing. -/
theorem preserves : Cert.preserves_Kernel_KernelIdeal := trivial

/-- Both programs end with the specification's loss and accuracy of arguments that agree. -/
theorem algebraic : Cert.algebraic_KernelIdeal_ReferenceIdeal := by
  intro m ρ m' ρ' _ hagree
  refine ⟨fun c => Cert.Focal.lossOut (Cert.KernelIdeal.Focal.argX m c) (Cert.KernelIdeal.Focal.argT m c),
    fun c => Cert.Focal.hitOut (Cert.KernelIdeal.Focal.argX m c) (Cert.KernelIdeal.Focal.argT m c),
    Cert.KernelIdeal.Focal.run m ρ, ?_⟩
  refine (θ_run Cert.ReferenceIdeal.defs _ _).mono (fun _ h c => ?_) (Cert.ReferenceIdeal.Value.run (F := Ideal) m' ρ')
  refine ⟨(h c).1.trans ?_, (h c).2.1.trans ?_, (h c).2.2.1, (h c).2.2.2⟩
  · rw [Cert.ReferenceIdeal.Read.val_main_v24_eq, Cert.ReferenceIdeal.Focal.loss_eq, (hagree c).1, (hagree c).2]
  · rw [Cert.ReferenceIdeal.Read.val_main_v29_eq, Cert.ReferenceIdeal.Focal.hit_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
